-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) (main_arg1 : FVec F S32x2048x128 .f32) (main_arg2 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  main_v13
-- ==== Kernel.lean ====
abbrev S32x2048x128 : Shape := ⟨3, ![32, 2048, 128]⟩
abbrev S32x2048x2048 : Shape := ⟨3, ![32, 2048, 2048]⟩
abbrev S1x1024x128 : Shape := ⟨3, ![1, 1024, 128]⟩
abbrev S1x2048x128 : Shape := ⟨3, ![1, 2048, 128]⟩
abbrev S1x1024x2048 : Shape := ⟨3, ![1, 1024, 2048]⟩
abbrev S1024x128 : Shape := ⟨2, ![1024, 128]⟩
abbrev S2048x128 : Shape := ⟨2, ![2048, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x128, .f32⟩
  | .hbm, ⟨4, _⟩ => ⟨S32x2048x2048, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x2048, .f32⟩
  | .local _ .vmem, ⟨9, _⟩ => ⟨S1x1024x2048, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x128_S1x1024x128 : S1024x128.ShapeCasts S1x1024x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x2048x128.size a
  hwx0_0 : ∀ i : grid0.Coords, EltTy.bits .f32 = 32 ∨ (Rect.block (s := S32x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .f32 = 32 ∨ (Rect.block (s := S32x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x2048x128.size a
  hwx0_2 : ∀ i : grid0.Coords, EltTy.bits .f32 = 32 ∨ (Rect.block (s := S32x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S32x2048x128.size a
  hwx0_3 : ∀ i : grid0.Coords, EltTy.bits .f32 = 32 ∨ (Rect.block (s := S32x2048x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S32x2048x128, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x128_S32x2048x128_S32x2048x2048_2_2_1_1_0_0_wf : DotDims.WF S32x2048x128 S32x2048x128 S32x2048x2048 [2] [2] [1] [1] [0] [0]
  dot_S32x2048x2048_S32x2048x128_S32x2048x128_2_1_1_2_0_0_wf : DotDims.WF S32x2048x2048 S32x2048x128 S32x2048x128 [2] [1] [1] [2] [0] [0]

variable [Facts₀]

def dot_S32x2048x128_S32x2048x128_S32x2048x2048_2_2_1_1_0_0 : DotDims S32x2048x128 S32x2048x128 S32x2048x2048 where
  lhsContracting := [2]
  rhsContracting := [2]
  lhsNonContracting := [1]
  rhsNonContracting := [1]
  lhsBatch := [0]
  rhsBatch := [0]
  wf := dot_S32x2048x128_S32x2048x128_S32x2048x2048_2_2_1_1_0_0_wf
def dot_S32x2048x2048_S32x2048x128_S32x2048x128_2_1_1_2_0_0 : DotDims S32x2048x2048 S32x2048x128 S32x2048x128 where
  lhsContracting := [2]
  rhsContracting := [1]
  lhsNonContracting := [1]
  rhsNonContracting := [2]
  lhsBatch := [0]
  rhsBatch := [0]
  wf := dot_S32x2048x2048_S32x2048x128_S32x2048x128_2_1_1_2_0_0_wf

class Facts : Prop extends Facts₀ where

variable [Facts]
-- ==== Proof.Softmax.lean ====
/-
  Scaled dot-product attention, row by row, on the extended reals.

  For one query row `x` (`dk` numbers) and `n` key rows the scores are `s j = (∑ d, x d · key j d) · c`, with `c` the value
  of the one scale word both programs print. The row's softmax is `exp (s j − M) / ∑ j', exp (s j' − M)`, where `M` is the
  maximum of the row taken from −∞. The attention matrix of a batch holds these numbers at (row, key), and the context
  vector of a row is the weighted sum `∑ j, weight j · value j d` of the value rows. Everything is stated over functions
  of literal index types, so both programs' arrays and blocks can be plugged in.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- The maximum of a row of numbers, taken from the value of the word of −∞. -/
def rowMax {n : ℕ} (s : Fin n → EReal) : EReal :=
  (Finset.univ : Finset (Fin n)).fold max (Ideal.ofBits .f32 0xFF800000#32) s

/-- The unnormalised softmax weight of entry `j`: the exponential of its distance below the row's maximum. -/
def weight {n : ℕ} (s : Fin n → EReal) (j : Fin n) : EReal := Ideal.exp (s j - rowMax s)

/-- The softmax of a row: each weight divided by the sum of the row's weights. -/
def softmaxRow {n : ℕ} (s : Fin n → EReal) (j : Fin n) : EReal := Ideal.div (weight s j) (∑ j' : Fin n, weight s j')

/-- The scaled scores of one query row against the key rows. -/
def scoreRow {n dk : ℕ} (x : Fin dk → EReal) (key : Fin n → Fin dk → EReal) (j : Fin n) : EReal :=
  (∑ d : Fin dk, x d * key j d) * Ideal.ofBits .f32 0x3DB504F3#32

/-- The attention matrix of every batch: at (b, r, j) the softmax over the keys of batch `b` of query row `r`, at key `j`. -/
def attn (q k : (⟨3, ![32, 2048, 128]⟩ : Shape).Idx → EReal) : (⟨3, ![32, 2048, 2048]⟩ : Shape).Idx → EReal :=
  fun i => softmaxRow (scoreRow (fun d => q (ix3 (i 0) (i 1) d)) (fun j d => k (ix3 (i 0) j d))) (i 2)

/-- The context vectors: at (b, r, d) the attention row (b, r) applied to column `d` of batch `b`'s values. -/
def ctx (q k v : (⟨3, ![32, 2048, 128]⟩ : Shape).Idx → EReal) : (⟨3, ![32, 2048, 128]⟩ : Shape).Idx → EReal :=
  fun i => ∑ j : Fin 2048, attn q k (ix3 (i 0) (i 1) j) * v (ix3 (i 0) j (i 2))

/-- The maximum with −∞ in front changes nothing. -/
theorem max_negInf (y : EReal) : max (Ideal.ofBits .f32 0xFF800000#32) y = y := by
  simp [Ideal.ofBits, Ideal.ieee]

end Cert.Attention

end
-- ==== Proof.LibRowMax.lean ====
/-
  Row maxima of a matrix, at the exact (extended-real) reading of the float operations.

  The lane reduction by maximum along the columns of an `a × b` matrix, started from a given word, has at row `p` the fold
  of `max` from that word's value over the row's `b` entries (`rowMax_lane_apply`). Also here: the words a printed
  maximum and a printed sum start from (the word of −∞, the word of +0.0) are the neutral words of those reductions,
  stated as equations of the exact form a reduction's side condition has, so that a term built with them is rewritten
  by lemmas about reductions without unfolding anything (`maxAcc`, `addAcc`).
-/
import Idealize.ShloMosaic.PureOps.Ideal.Laws
import Idealize.ShloMosaic.Lib.ValueIdx

noncomputable section

namespace Cert.RowMax

open Idealize.ShloMosaic Idealize.ShloMosaic.ValueIdx

/-- The word a row maximum starts from (that of −∞) is the neutral word of a maximum at f32. -/
theorem maxAcc : (0xFF800000#32 : BitVec 32) = FKind.maximumf.neutral .f32 (.inl rfl) := rfl

/-- The word a row sum starts from (that of +0.0) is the neutral word of a sum at f32. -/
theorem addAcc : (0x00000000#32 : BitVec 32) = FKind.add.neutral .f32 (.inl rfl) := rfl

/-- The maximum of each row of a matrix as the lane reduction gives it: at row `p` the fold of max, from the value of the
    starting word, over that row's entries. -/
theorem rowMax_lane_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  have e : (src ∘ h.lift (ix1 p)) = fun k : Fin b => src (ix2 p k) := funext fun k => congrArg src (funext fun ax => Fin.ext (by
    match ax with
    | ⟨0, _⟩ => rfl
    | ⟨1, _⟩ => rfl))
  rw [e]
  rfl

end Cert.RowMax

end
-- ==== Proof.LibKeepdims.lean ====
/-
  KEEPDIMS COLUMNS AND THE LANE SOFTMAX, read at an index at the ideal values.

  A per-row number `[a]` kept as a column `[a, 1]` and spread over `b` columns reads, at `(p, c)`, the number of row `p`
  (`shapeCast_col_apply`, `broadcastTo_col_apply`); a lane sum along the columns is the sum over the row (`rowSum_apply`; the
  row maximum as a fold of max is the row-maximum module's). With the row maximum and the row sum taken by lane reductions, the
  softmax a kernel body spells as `exp (S − max) / sum (exp (S − max))` over an `a × b` matrix `S` is, at `(r, j)`,
  the exponential of `S r j` minus the fold of max over row `r`, divided by the sum over the row of those exponentials
  (`laneSoftmax_apply`). Every lemma holds for all extents.
-/
import Idealize.ShloMosaic.PureOps.Ideal
import Idealize.ShloMosaic.PureOps.Ideal.Laws
import Idealize.ShloMosaic.Lib.ValueIdx
import Idealize.ShloMosaic.Lib.Pipeline.Value
import proofs.«172469_j39651138077522_2_alg».proof.Proof.LibRowMax

noncomputable section

open scoped BigOperators

namespace Cert.Keepdims

open Idealize.ShloMosaic Idealize.ShloMosaic.ValueIdx

variable {α : Type}

/-- A vector `[a]` cast to a column `[a, 1]` reads, at `(i, u)`, the vector at `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `b` columns reads, at `(p, c)`, the column's entry of row `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane reduction by sum along the columns, at row `p`: the sum over the row. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  have e : (fun k => src (h.lift (ix1 p) k)) = fun k : Fin b => src (ix2 p k) := funext fun k => congrArg src (funext fun ax => Fin.ext (by
    match ax with
    | ⟨0, _⟩ => rfl
    | ⟨1, _⟩ => rfl))
  exact congrArg (fun f : Fin b → EReal => ∑ k : Fin b, f k) e

/-- THE LANE SOFTMAX at `(r, j)`: with `M` the fold of max over row `r` from the starting word's value,
    `exp (S r j − M)` divided by the sum over the row of `exp (S r k − M)`. -/
theorem laneSoftmax_apply {a b : ℕ} (S : FVec Ideal ⟨2, ![a, b]⟩ .f32) (accm acca : BitVec 32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ hφ' : FKind.Formats .f32)
    (hm : accm = FKind.maximumf.neutral .f32 hφ) (ha : acca = FKind.add.neutral .f32 hφ') (r : Fin a) (j : Fin b) :
    divf (exp (subf S (broadcastTo ⟨2, ![a, b]⟩ (shapeCast ⟨2, ![a, 1]⟩ (multiReduction .maximumf [1] ⟨1, ![a]⟩ S accm hr hφ hm) hc) hb)))
        (broadcastTo ⟨2, ![a, b]⟩ (shapeCast ⟨2, ![a, 1]⟩ (multiReduction .add [1] ⟨1, ![a]⟩
          (exp (subf S (broadcastTo ⟨2, ![a, b]⟩ (shapeCast ⟨2, ![a, 1]⟩ (multiReduction .maximumf [1] ⟨1, ![a]⟩ S accm hr hφ hm) hc) hb)))
          acca hr hφ' ha) hc) hb) (ix2 r j)
      = Ideal.div (Ideal.exp (S (ix2 r j) - (Finset.univ : Finset (Fin b)).fold max (Ideal.ofBits .f32 accm) (fun k => S (ix2 r k))))
          (∑ k : Fin b, Ideal.exp (S (ix2 r k) - (Finset.univ : Finset (Fin b)).fold max (Ideal.ofBits .f32 accm) (fun k => S (ix2 r k)))) := by
  have hM : ∀ k : Fin b, broadcastTo ⟨2, ![a, b]⟩ (shapeCast ⟨2, ![a, 1]⟩ (multiReduction .maximumf [1] ⟨1, ![a]⟩ S accm hr hφ hm) hc) hb (ix2 r k)
      = (Finset.univ : Finset (Fin b)).fold max (Ideal.ofBits .f32 accm) (fun k => S (ix2 r k)) := fun k =>
    ((broadcastTo_col_apply _ hb r k).trans (shapeCast_col_apply _ hc r 0)).trans (Cert.RowMax.rowMax_lane_apply S accm hr hφ hm r)
  have hW : ∀ k : Fin b, exp (subf S (broadcastTo ⟨2, ![a, b]⟩ (shapeCast ⟨2, ![a, 1]⟩ (multiReduction .maximumf [1] ⟨1, ![a]⟩ S accm hr hφ hm) hc) hb)) (ix2 r k)
      = Ideal.exp (S (ix2 r k) - (Finset.univ : Finset (Fin b)).fold max (Ideal.ofBits .f32 accm) (fun k => S (ix2 r k))) := fun k =>
    congrArg (fun y => Ideal.exp (S (ix2 r k) - y)) (hM k)
  refine (divf_apply _ _ (ix2 r j)).trans ?_
  rw [hW j]
  refine congrArg (Ideal.div _) ?_
  refine ((broadcastTo_col_apply _ hb r j).trans (shapeCast_col_apply _ hc r 0)).trans ?_
  refine (rowSum_apply _ acca hr hφ' ha r).trans ?_
  exact Finset.sum_congr rfl fun k _ => hW k

end Cert.Keepdims

end
-- ==== Proof.BlockAttention.lean ====
/-
  What the kernel body computes from one point's blocks, read at an index.

  The body holds a block of 1024 query rows `x0`, the 2048 key rows `x1` and the 2048 value rows `x2` of one batch. Its
  first matrix product, scaled, gives at (r, j) the scaled score of query row `r` against key row `j`; its lane softmax
  then gives the attention weight of (r, j), and its second matrix product the context vector of row `r`: the weights of
  the row applied to each column of the values.
-/
import proofs.«172469_j39651138077522_2_alg».proof.Proof.Gen.KernelIdeal.Skeleton
import proofs.«172469_j39651138077522_2_alg».proof.Proof.Softmax
import proofs.«172469_j39651138077522_2_alg».proof.Proof.LibKeepdims
import Idealize.ShloMosaic.Lib.ValueLayout
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Attention

/-! ## The two matrix products, read at an index -/

theorem lhsQK_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhsQK_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhsQK_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhsQK_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- The product of the query block with the transposed key rows, into zero, at (r, j): the inner product of query row
    `r` with key row `j`. -/
theorem scores_apply (A : FVec Ideal S1024x128 .f32) (B : FVec Ideal S2048x128 .f32) (r : Fin 1024) (j : Fin 2048) :
    matmul dot_S1024x128_S2048x128_S1024x2048_1_1_0_0_n_n (some .fp32) A B (constant (F := Ideal) S1024x2048 .f32 0x00000000#32) (ix2 r j)
      = ∑ d : Fin 128, A (ix2 r d) * B (ix2 j d) := by
  show FloatOps.matmul dot_S1024x128_S2048x128_S1024x2048_1_1_0_0_n_n (some .fp32) A B (constant (F := Ideal) S1024x2048 .f32 0x00000000#32) (ix2 r j) = _
  rw [Ideal.matmul_constant_zero_apply, ← Equiv.sum_comp (contrEquiv1 dot_S1024x128_S2048x128_S1024x2048_1_1_0_0_n_n 128 rfl rfl).symm]
  refine Finset.sum_congr rfl fun d _ => ?_
  have hd := contrEquiv1_symm_val dot_S1024x128_S2048x128_S1024x2048_1_1_0_0_n_n 128 rfl rfl d
  have el : dot_S1024x128_S2048x128_S1024x2048_1_1_0_0_n_n.lhsIdx (ix2 r j) ((contrEquiv1 dot_S1024x128_S2048x128_S1024x2048_1_1_0_0_n_n 128 rfl rfl).symm d) = ix2 r d := funext fun a => Fin.ext (by
    match a with
    | ⟨0, _⟩ => exact lhsQK_0 _ _
    | ⟨1, _⟩ => exact (lhsQK_1 _ _).trans hd)
  have er : dot_S1024x128_S2048x128_S1024x2048_1_1_0_0_n_n.rhsIdx (ix2 r j) ((contrEquiv1 dot_S1024x128_S2048x128_S1024x2048_1_1_0_0_n_n 128 rfl rfl).symm d) = ix2 j d := funext fun a => Fin.ext (by
    match a with
    | ⟨0, _⟩ => exact rhsQK_0 _ _
    | ⟨1, _⟩ => exact (rhsQK_1 _ _).trans hd)
  rw [el, er]

theorem lhsPV_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhsPV_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhsPV_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhsPV_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The product of the weights with the value rows, into zero, at (r, d): the weights of row `r` applied to column `d`. -/
theorem context_apply (A : FVec Ideal S1024x2048 .f32) (B : FVec Ideal S2048x128 .f32) (r : Fin 1024) (d : Fin 128) :
    matmul dot_S1024x2048_S2048x128_S1024x128_1_0_0_1_n_n (some .fp32) A B (constant (F := Ideal) S1024x128 .f32 0x00000000#32) (ix2 r d)
      = ∑ j : Fin 2048, A (ix2 r j) * B (ix2 j d) := by
  show FloatOps.matmul dot_S1024x2048_S2048x128_S1024x128_1_0_0_1_n_n (some .fp32) A B (constant (F := Ideal) S1024x128 .f32 0x00000000#32) (ix2 r d) = _
  rw [Ideal.matmul_constant_zero_apply, ← Equiv.sum_comp (contrEquiv1 dot_S1024x2048_S2048x128_S1024x128_1_0_0_1_n_n 2048 rfl rfl).symm]
  refine Finset.sum_congr rfl fun j _ => ?_
  have hj := contrEquiv1_symm_val dot_S1024x2048_S2048x128_S1024x128_1_0_0_1_n_n 2048 rfl rfl j
  have el : dot_S1024x2048_S2048x128_S1024x128_1_0_0_1_n_n.lhsIdx (ix2 r d) ((contrEquiv1 dot_S1024x2048_S2048x128_S1024x128_1_0_0_1_n_n 2048 rfl rfl).symm j) = ix2 r j := funext fun a => Fin.ext (by
    match a with
    | ⟨0, _⟩ => exact lhsPV_0 _ _
    | ⟨1, _⟩ => exact (lhsPV_1 _ _).trans hj)
  have er : dot_S1024x2048_S2048x128_S1024x128_1_0_0_1_n_n.rhsIdx (ix2 r d) ((contrEquiv1 dot_S1024x2048_S2048x128_S1024x128_1_0_0_1_n_n 2048 rfl rfl).symm j) = ix2 j d := funext fun a => Fin.ext (by
    match a with
    | ⟨0, _⟩ => exact (rhsPV_0 _ _).trans hj
    | ⟨1, _⟩ => exact rhsPV_1 _ _)
  rw [el, er]

/-! ## The body's two stored values -/

/-- The block's scaled scores, as the body spells them, at (r, k): the scaled score of query row `r` against key row `k`. -/
theorem blockScores_apply (x0 : Vec Ideal S1x1024x128 .f32) (x1 : Vec Ideal S1x2048x128 .f32) (r : Fin 1024) (k : Fin 2048) :
    mulf (matmul dot_S1024x128_S2048x128_S1024x2048_1_1_0_0_n_n (some .fp32) (shapeCast S1024x128 x0 shapeCasts_S1x1024x128_S1024x128 : FVec Ideal S1024x128 .f32)
        (shapeCast S2048x128 x1 shapeCasts_S1x2048x128_S2048x128 : FVec Ideal S2048x128 .f32) (constant (F := Ideal) S1024x2048 .f32 0x00000000#32))
      (broadcast S1024x2048 (Scalar.ofBits (F := Ideal) .f32 0x3DB504F3#32)) (ix2 r k)
      = scoreRow (fun d => x0 (ix3 (0 : Fin 1) r d)) (fun j d => x1 (ix3 (0 : Fin 1) j d)) k := by
  refine (mulf_apply _ _ _).trans ?_
  rw [scores_apply]
  unfold scoreRow
  refine congrArg (· * _) (Finset.sum_congr rfl fun d _ => ?_)
  rw [shapeCast_1ab_ab_apply, shapeCast_1ab_ab_apply]

/-- THE ATTENTION WEIGHTS the body stores, at (r, j): the softmax over the key rows of query row `r`'s scaled scores. -/
theorem pay1_apply (x0 : Vec Ideal S1x1024x128 .f32) (x1 : Vec Ideal S1x2048x128 .f32) (r : Fin 1024) (j : Fin 2048) :
    k0_pay1 x0 x1 (ix2 r j) = softmaxRow (scoreRow (fun d => x0 (ix3 (0 : Fin 1) r d)) (fun j d => x1 (ix3 (0 : Fin 1) j d))) j := by
  unfold k0_pay1
  refine (Cert.Keepdims.laneSoftmax_apply _ 0xFF800000#32 0x00000000#32 reduces_S1024x2048_S1024 shapeCasts_S1024_S1024x1
    broadcasts_S1024x1_S1024x2048 (.inl rfl) (.inl rfl) rfl rfl r j).trans ?_
  unfold softmaxRow weight rowMax
  simp only [blockScores_apply]

/-- The stored attention block is the weights with a unit batch axis in front. -/
theorem pay2_apply (x0 : Vec Ideal S1x1024x128 .f32) (x1 : Vec Ideal S1x2048x128 .f32) (u : Fin 1) (r : Fin 1024) (j : Fin 2048) :
    k0_pay2 x0 x1 (ix3 u r j) = k0_pay1 x0 x1 (ix2 r j) := by
  unfold k0_pay2
  exact shapeCast_ab_1ab_apply _ _ u r j

/-- THE CONTEXT VECTORS the body stores, at (0, r, d): the attention weights of row `r` applied to column `d` of the values. -/
theorem pay3_apply (x0 : Vec Ideal S1x1024x128 .f32) (x1 x2 : Vec Ideal S1x2048x128 .f32) (u : Fin 1) (r : Fin 1024) (d : Fin 128) :
    k0_pay3 x0 x1 x2 (ix3 u r d) = ∑ j : Fin 2048, k0_pay1 x0 x1 (ix2 r j) * x2 (ix3 (0 : Fin 1) j d) := by
  unfold k0_pay3
  refine (shapeCast_ab_1ab_apply _ _ u r d).trans ?_
  refine (context_apply _ _ r d).trans ?_
  refine Finset.sum_congr rfl fun j _ => ?_
  rw [shapeCast_1ab_ab_apply]

end Cert.KernelIdeal.BlockValue

end
-- ==== Proof.PointValue.lean ====
/-
  One grid point's stored blocks as entries of the attention matrix and of the context vectors.

  At a grid point the body's query block is rows `qi·1024 …` of batch `b` of the query array, and its key and value blocks
  are all of batch `b`'s key and value rows. So the weights it computes for its row `r` are row `qi·1024 + r` of batch
  `b`'s attention matrix, and its context rows are the same rows of the context array. The blocks and arrays are variables
  here, tied by the hypotheses that say which array entry each block entry is.
-/
import proofs.«172469_j39651138077522_2_alg».proof.Proof.BlockAttention

noncomputable section

open scoped BigOperators

namespace Cert.KernelIdeal.PointValue

open Cert.KernelIdeal Cert.KernelIdeal.Gen Cert.KernelIdeal.BlockValue Idealize.ShloMosaic Idealize.ShloMosaic.ValueIdx Cert.Attention

/-- The body's weight at (r, j) is the attention matrix's entry at (b, qi·1024 + r, j). -/
theorem point_weight (q k : S32x2048x128.Idx → EReal) (P0 : Vec Ideal S1x1024x128 .f32) (P1 : Vec Ideal S1x2048x128 .f32) (b qi : ℕ)
    (h0 : ∀ (r : Fin 1024) (d : Fin 128) (i : S32x2048x128.Idx), (i 0).val = b → (i 1).val = qi * 1024 + r.val → (i 2).val = d.val →
      P0 (ix3 (0 : Fin 1) r d) = q i)
    (h1 : ∀ (j : Fin 2048) (d : Fin 128) (i : S32x2048x128.Idx), (i 0).val = b → (i 1).val = j.val → (i 2).val = d.val →
      P1 (ix3 (0 : Fin 1) j d) = k i)
    (r : Fin 1024) (j : Fin 2048) (bb : Fin 32) (rr : Fin 2048) (hb : bb.val = b) (hr : rr.val = qi * 1024 + r.val) :
    k0_pay1 P0 P1 (ix2 r j) = attn q k (ix3 bb rr j) := by
  rw [pay1_apply]
  show softmaxRow (scoreRow (fun d => P0 (ix3 (0 : Fin 1) r d)) (fun j d => P1 (ix3 (0 : Fin 1) j d))) j
    = softmaxRow (scoreRow (fun d => q (ix3 bb rr d)) (fun j d => k (ix3 bb j d))) j
  have e0 : (fun d => P0 (ix3 (0 : Fin 1) r d)) = fun d => q (ix3 bb rr d) := funext fun d => h0 r d (ix3 bb rr d) hb hr rfl
  have e1 : (fun j d => P1 (ix3 (0 : Fin 1) j d)) = fun j d => k (ix3 bb j d) := funext fun j => funext fun d => h1 j d (ix3 bb j d) hb rfl rfl
  rw [e0, e1]

/-- The stored attention block at `y` is the attention matrix at the array index `i` over `y`. -/
theorem point_attn (q k : S32x2048x128.Idx → EReal) (P0 : Vec Ideal S1x1024x128 .f32) (P1 : Vec Ideal S1x2048x128 .f32) (b qi : ℕ)
    (h0 : ∀ (r : Fin 1024) (d : Fin 128) (i : S32x2048x128.Idx), (i 0).val = b → (i 1).val = qi * 1024 + r.val → (i 2).val = d.val →
      P0 (ix3 (0 : Fin 1) r d) = q i)
    (h1 : ∀ (j : Fin 2048) (d : Fin 128) (i : S32x2048x128.Idx), (i 0).val = b → (i 1).val = j.val → (i 2).val = d.val →
      P1 (ix3 (0 : Fin 1) j d) = k i)
    (y : S1x1024x2048.Idx) (i : S32x2048x2048.Idx) (hi0 : (i 0).val = b) (hi1 : (i 1).val = qi * 1024 + (y 1).val)
    (hi2 : (i 2).val = (y 2).val) :
    k0_pay2 P0 P1 y = attn q k i := by
  obtain ⟨u, r, j, rfl⟩ : ∃ (u : Fin 1) (r : Fin 1024) (j : Fin 2048), y = ix3 u r j := ⟨y 0, y 1, y 2, eq_ix3 y⟩
  obtain ⟨bb, rr, jj, rfl⟩ : ∃ (bb : Fin 32) (rr : Fin 2048) (jj : Fin 2048), i = ix3 bb rr jj := ⟨i 0, i 1, i 2, eq_ix3 i⟩
  have hb : bb.val = b := hi0
  have hr : rr.val = qi * 1024 + r.val := hi1
  obtain rfl : jj = j := Fin.ext hi2
  rw [pay2_apply]
  exact point_weight q k P0 P1 b qi h0 h1 r jj bb rr hb hr

/-- The stored context block at `y` is the context array at the array index `i` over `y`. -/
theorem point_ctx (q k v : S32x2048x128.Idx → EReal) (P0 : Vec Ideal S1x1024x128 .f32) (P1 P2 : Vec Ideal S1x2048x128 .f32) (b qi : ℕ)
    (h0 : ∀ (r : Fin 1024) (d : Fin 128) (i : S32x2048x128.Idx), (i 0).val = b → (i 1).val = qi * 1024 + r.val → (i 2).val = d.val →
      P0 (ix3 (0 : Fin 1) r d) = q i)
    (h1 : ∀ (j : Fin 2048) (d : Fin 128) (i : S32x2048x128.Idx), (i 0).val = b → (i 1).val = j.val → (i 2).val = d.val →
      P1 (ix3 (0 : Fin 1) j d) = k i)
    (h2 : ∀ (j : Fin 2048) (d : Fin 128) (i : S32x2048x128.Idx), (i 0).val = b → (i 1).val = j.val → (i 2).val = d.val →
      P2 (ix3 (0 : Fin 1) j d) = v i)
    (y : S1x1024x128.Idx) (i : S32x2048x128.Idx) (hi0 : (i 0).val = b) (hi1 : (i 1).val = qi * 1024 + (y 1).val)
    (hi2 : (i 2).val = (y 2).val) :
    k0_pay3 P0 P1 P2 y = ctx q k v i := by
  obtain ⟨u, r, d, rfl⟩ : ∃ (u : Fin 1) (r : Fin 1024) (d : Fin 128), y = ix3 u r d := ⟨y 0, y 1, y 2, eq_ix3 y⟩
  obtain ⟨bb, rr, dd, rfl⟩ : ∃ (bb : Fin 32) (rr : Fin 2048) (dd : Fin 128), i = ix3 bb rr dd := ⟨i 0, i 1, i 2, eq_ix3 i⟩
  have hb : bb.val = b := hi0
  have hr : rr.val = qi * 1024 + r.val := hi1
  obtain rfl : dd = d := Fin.ext hi2
  rw [pay3_apply]
  show ∑ j : Fin 2048, k0_pay1 P0 P1 (ix2 r j) * P2 (ix3 (0 : Fin 1) j dd) = ∑ j : Fin 2048, attn q k (ix3 bb rr j) * v (ix3 bb j dd)
  refine Finset.sum_congr rfl fun j _ => ?_
  rw [point_weight q k P0 P1 b qi h0 h1 r j bb rr hb hr, h2 j dd (ix3 bb j dd) hb rfl rfl]

end Cert.KernelIdeal.PointValue

end
-- ==== Proof.ArrayValue.lean ====
/-
  From the grid points' blocks to the two result arrays.

  Grid point `t` = (b, qi) writes back rows `qi·1024 … qi·1024 + 1023` of batch `b` of both results; its query block is
  the same rows of the query array, and its key and value blocks are batch `b` of the key and value arrays. So what the
  point writes back is its block of the attention matrix, and of the context array; the 64 blocks tile each result array
  (the block over row `i` of batch `b` is the point (b, i / 1024)), so after the run the arrays are the attention matrix and
  the context vectors of the argument arrays.
-/
import proofs.«172469_j39651138077522_2_alg».proof.Proof.Gen.KernelIdeal.Value
import proofs.«172469_j39651138077522_2_alg».proof.Proof.PointValue
import Idealize.ShloMosaic.Lib.Pipeline.Value

noncomputable section

open Idealize.ShloMosaic Idealize.ShloMosaic.TcCoe Idealize.SL.Sem
open Idealize.ShloMosaic.Pipeline (Dat)

namespace Cert.KernelIdeal.ArrayValue

open Cert.KernelIdeal Cert.KernelIdeal.Gen Cert.KernelIdeal.PointValue Idealize.ShloMosaic.ValueIdx Cert.Attention

variable (m : (ℓ : Loc nD τ sig) → Buf (Elt Ideal) ℓ) (ρ : Dev nD → PrngReg)

theorem zero3 : (![0, 0, 0] : Fin 3 → Nat) = fun _ => 0 := funext fun a => by fin_cases a <;> rfl

/-- The printed index maps, decided over the grid: every window's batch coordinate is the point's, the query and result
    windows share the point's row-block coordinate, the key and value windows start at row 0, and no window is offset along
    its last axis. -/
theorem index_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3) ∧ win0_3.index t (2 : Fin 3) = 0
    ∧ win0_4.index t (0 : Fin 3) < 32 ∧ win0_4.index t (1 : Fin 3) < 2 ∧ win0_4.index t (2 : Fin 3) = 0 :=
  (by decide +kernel : ∀ t : Fin grid0.N, _)

/-- Every (batch, row block) is some point's. -/
theorem index_onto : ∀ (b : Fin 32) (qi : Fin 2), ∃ t : Fin cfg0.N, win0_4.index t = ![b.val, qi.val, 0] :=
  (by decide +kernel : ∀ (b : Fin 32) (qi : Fin 2), ∃ t : Fin grid0.N, win0_4.index t = ![b.val, qi.val, 0])

/-! ## The input blocks as entries of the argument arrays -/

/-- The query block at point `t`, at (0, r, d), is the query array at (b, qi·1024 + r, d). -/
theorem queryBlock_apply (c : Dev nD) (t : Fin cfg0.N) (r : Fin 1024) (d : Fin 128) (i : S32x2048x128.Idx)
    (h0 : (i 0).val = win0_4.index t (0 : Fin 3)) (h1 : (i 1).val = win0_4.index t (1 : Fin 3) * 1024 + r.val) (h2 : (i 2).val = d.val) :
    (iblk m c 0 t : Vec Ideal S1x1024x128 .f32) (ix3 (0 : Fin 1) r d) = (V m c main_arg0 : S32x2048x128.Idx → EReal) i := by
  obtain ⟨e0, e1, e2, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 128 + 1 * d.val = (i 2).val; omega

/-- The key block at point `t`, at (0, j, d), is the key array at (b, j, d). -/
theorem keyBlock_apply (c : Dev nD) (t : Fin cfg0.N) (j : Fin 2048) (d : Fin 128) (i : S32x2048x128.Idx)
    (h0 : (i 0).val = win0_4.index t (0 : Fin 3)) (h1 : (i 1).val = j.val) (h2 : (i 2).val = d.val) :
    (iblk m c 1 t : Vec Ideal S1x2048x128 .f32) (ix3 (0 : Fin 1) j d) = (V m c main_arg1 : S32x2048x128.Idx → EReal) i := by
  obtain ⟨-, -, -, e0, e1, e2, -⟩ := index_facts t
  unfold iblk
  rw [View.read_apply]
  show V m c main_arg1 _ = V m c main_arg1 _
  refine congrArg (V m c main_arg1) (funext fun a => Fin.ext ?_)
  match a with
  | ⟨0, _⟩ => show win0_1.index t (0 : Fin 3) * 1 + 1 * 0 = (i 0).val; omega
  | ⟨1, _⟩ => show win0_1.index t (1 : Fin 3) * 2048 + 1 * j.val = (i 1).val; omega
  | ⟨2, _⟩ => show win0_1.index t (2 : Fin 3) * 128 + 1 * d.val = (i 2).val; omega

/-- The value block at point `t`, at (0, j, d), is the value array at (b, j, d). -/
theorem valueBlock_apply (c : Dev nD) (t : Fin cfg0.N) (j : Fin 2048) (d : Fin 128) (i : S32x2048x128.Idx)
    (h0 : (i 0).val = win0_4.index t (0 : Fin 3)) (h1 : (i 1).val = j.val) (h2 : (i 2).val = d.val) :
    (iblk m c 2 t : Vec Ideal S1x2048x128 .f32) (ix3 (0 : Fin 1) j d) = (V m c main_arg2 : S32x2048x128.Idx → EReal) i := by
  obtain ⟨-, -, -, -, -, -, e0, e1, e2, -⟩ := index_facts t
  unfold iblk
  rw [View.read_apply]
  show V m c main_arg2 _ = V m c main_arg2 _
  refine congrArg (V m c main_arg2) (funext fun a => Fin.ext ?_)
  match a with
  | ⟨0, _⟩ => show win0_2.index t (0 : Fin 3) * 1 + 1 * 0 = (i 0).val; omega
  | ⟨1, _⟩ => show win0_2.index t (1 : Fin 3) * 2048 + 1 * j.val = (i 1).val; omega
  | ⟨2, _⟩ => show win0_2.index t (2 : Fin 3) * 128 + 1 * d.val = (i 2).val; omega

/-! ## The attention matrix (output window 4) -/

/-- WHAT POINT `t` WRITES BACK to the attention array is block `t` of the attention matrix of the query and key arrays. -/
theorem flushedAttn_eq (c : Dev nD) (t : Fin cfg0.N) :
    (dats m 0 c).flushed 4 t = ((cfg0.win 4).blk t).view.read (Elt Ideal)
      (attn (V m c main_arg0 : S32x2048x128.Idx → EReal) (V m c main_arg1 : S32x2048x128.Idx → EReal)) := by
  obtain ⟨-, -, -, -, -, -, -, -, -, -, -, -, hb, hq, e2⟩ := index_facts t
  rw [Cert.KernelIdeal.Value.flushed4]
  unfold out0_4
  rw [View.canon_unit_zero zero3]
  simp only [View.ld_unit_zero (S := S1x1024x128) zero3, View.ld_unit_zero (S := S1x2048x128) zero3]
  funext y
  show k0_pay2 (iblk m c 0 t) (iblk m c 1 t) y
    = attn (V m c main_arg0 : S32x2048x128.Idx → EReal) (V m c main_arg1 : S32x2048x128.Idx → EReal) (((cfg0.win 4).blk t).view.emb y)
  have hy0 : (y 0).val < 1 := (y 0).isLt
  refine point_attn (V m c main_arg0 : S32x2048x128.Idx → EReal) (V m c main_arg1 : S32x2048x128.Idx → EReal) (iblk m c 0 t) (iblk m c 1 t)
    (win0_4.index t (0 : Fin 3)) (win0_4.index t (1 : Fin 3))
    (fun r d i a0 a1 a2 => queryBlock_apply m c t r d i a0 a1 a2) (fun j d i a0 a1 a2 => keyBlock_apply m c t j d i a0 a1 a2)
    y (((cfg0.win 4).blk t).view.emb y) ?_ ?_ ?_
  · show win0_4.index t (0 : Fin 3) * 1 + 1 * (y 0).val = win0_4.index t (0 : Fin 3); omega
  · show win0_4.index t (1 : Fin 3) * 1024 + 1 * (y 1).val = win0_4.index t (1 : Fin 3) * 1024 + (y 1).val; omega
  · show win0_4.index t (2 : Fin 3) * 2048 + 1 * (y 2).val = (y 2).val; omega

/-- An index of the attention array is in point `t`'s block iff each coordinate is in the block's range on its axis. -/
theorem mem_attnBlock (t : Fin cfg0.N) (i : S32x2048x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v0_1).slice (win0_4.rect t)).set ↔ _
  rw [View.set_slice_whole, Rect.mem_set_unit]
  exact Iff.rfl

/-- Every index of the attention array is in some point's block: the point of its batch and of its row's block of 1024. -/
theorem coverAttn (i : S32x2048x2048.Idx) : ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := index_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_attnBlock]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- THE ATTENTION ARRAY after the run is the attention matrix of the query and key arrays. -/
theorem finalAttn (c : Dev nD) : (dats m 0 c).arrAt 4 cfg0.N
    = attn (V m c main_arg0 : S32x2048x128.Idx → EReal) (V m c main_arg1 : S32x2048x128.Idx → EReal) :=
  (dats m 0 c).arrAt_eq_of_cover 4 _ (fun t _ => flushedAttn_eq m c t) coverAttn

/-! ## The context vectors (output window 3) -/

/-- WHAT POINT `t` WRITES BACK to the context array is block `t` of the context vectors of the three argument arrays. -/
theorem flushedCtx_eq (c : Dev nD) (t : Fin cfg0.N) :
    (dats m 0 c).flushed 3 t = ((cfg0.win 3).blk t).view.read (Elt Ideal)
      (ctx (V m c main_arg0 : S32x2048x128.Idx → EReal) (V m c main_arg1 : S32x2048x128.Idx → EReal) (V m c main_arg2 : S32x2048x128.Idx → EReal)) := by
  obtain ⟨-, -, -, -, -, -, -, -, -, e0, e1, e2, hb, hq, -⟩ := index_facts t
  rw [Cert.KernelIdeal.Value.flushed3]
  unfold out0_3
  rw [View.canon_unit_zero zero3]
  simp only [View.ld_unit_zero (S := S1x1024x128) zero3, View.ld_unit_zero (S := S1x2048x128) zero3]
  funext y
  show k0_pay3 (iblk m c 0 t) (iblk m c 1 t) (iblk m c 2 t) y
    = ctx (V m c main_arg0 : S32x2048x128.Idx → EReal) (V m c main_arg1 : S32x2048x128.Idx → EReal) (V m c main_arg2 : S32x2048x128.Idx → EReal)
        (((cfg0.win 3).blk t).view.emb y)
  have hy0 : (y 0).val < 1 := (y 0).isLt
  refine point_ctx (V m c main_arg0 : S32x2048x128.Idx → EReal) (V m c main_arg1 : S32x2048x128.Idx → EReal) (V m c main_arg2 : S32x2048x128.Idx → EReal)
    (iblk m c 0 t) (iblk m c 1 t) (iblk m c 2 t) (win0_4.index t (0 : Fin 3)) (win0_4.index t (1 : Fin 3))
    (fun r d i a0 a1 a2 => queryBlock_apply m c t r d i a0 a1 a2) (fun j d i a0 a1 a2 => keyBlock_apply m c t j d i a0 a1 a2)
    (fun j d i a0 a1 a2 => valueBlock_apply m c t j d i a0 a1 a2)
    y (((cfg0.win 3).blk t).view.emb y) ?_ ?_ ?_
  · show win0_3.index t (0 : Fin 3) * 1 + 1 * (y 0).val = win0_4.index t (0 : Fin 3); omega
  · show win0_3.index t (1 : Fin 3) * 1024 + 1 * (y 1).val = win0_4.index t (1 : Fin 3) * 1024 + (y 1).val; omega
  · show win0_3.index t (2 : Fin 3) * 128 + 1 * (y 2).val = (y 2).val; omega

/-- An index of the context array is in point `t`'s block iff each coordinate is in the block's range on its axis. -/
theorem mem_ctxBlock (t : Fin cfg0.N) (i : S32x2048x128.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0_0).slice (win0_3.rect t)).set ↔ _
  rw [View.set_slice_whole, Rect.mem_set_unit]
  exact Iff.rfl

/-- Every index of the context array is in some point's block. -/
theorem coverCtx (i : S32x2048x128.Idx) : ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 128 := (i 2).isLt
  obtain ⟨t, ht⟩ := index_onto ⟨(i 0).val, hi0⟩ ⟨(i 1).val / 1024, by omega⟩
  obtain ⟨-, -, -, -, -, -, -, -, -, e0, e1, e2, -⟩ := index_facts t
  have q0 : win0_4.index t (0 : Fin 3) = (i 0).val := congrFun ht 0
  have q1 : win0_4.index t (1 : Fin 3) = (i 1).val / 1024 := congrFun ht 1
  refine ⟨t, flush0_3 t, ?_⟩
  rw [mem_ctxBlock]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- THE CONTEXT ARRAY after the run is the context vectors of the three argument arrays. -/
theorem finalCtx (c : Dev nD) : (dats m 0 c).arrAt 3 cfg0.N
    = ctx (V m c main_arg0 : S32x2048x128.Idx → EReal) (V m c main_arg1 : S32x2048x128.Idx → EReal) (V m c main_arg2 : S32x2048x128.Idx → EReal) :=
  (dats m 0 c).arrAt_eq_of_cover 3 _ (fun t _ => flushedCtx_eq m c t) coverCtx

/-! ## The run, read -/

/-- The kernel's run with both result arrays named: the context vectors and the attention matrix of the arguments. -/
theorem run : θ_run defs (onTc (τ := τ) (main (F := Ideal))) ⟨m, fun _ => 0, ρ⟩ fun r => ∀ c : Dev nD,
      r.2.mem ((c : Thread nD τ).loc main_v0_0)
        = ctx (m ((c : Thread nD τ).loc main_arg0) : S32x2048x128.Idx → EReal) (m ((c : Thread nD τ).loc main_arg1) : S32x2048x128.Idx → EReal)
            (m ((c : Thread nD τ).loc main_arg2) : S32x2048x128.Idx → EReal)
      ∧ r.2.mem ((c : Thread nD τ).loc main_v0_1)
        = attn (m ((c : Thread nD τ).loc main_arg0) : S32x2048x128.Idx → EReal) (m ((c : Thread nD τ).loc main_arg1) : S32x2048x128.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (finalCtx m c), (h c).2.1.trans (finalAttn m c), (h c).2.2⟩)
    (Cert.KernelIdeal.Value.run_blocks m ρ)

end Cert.KernelIdeal.ArrayValue

end
-- ==== Proof.RefAttention.lean ====
/-
  The reference computes the attention matrix and the context vectors.

  Its host operations are read one at a time at an index: the batched product of queries and keys, scaled, is the scaled
  score; the reduce by maximum over the keys from −∞ (with one more maximum against −∞, which changes nothing) is the row
  maximum; the exponential of the difference is the softmax weight; the reduce by sum from zero is the sum of the row's
  weights; the quotient is the attention weight; and the batched product with the values is the context vector.
-/
import proofs.«172469_j39651138077522_2_alg».proof.Proof.Gen.ReferenceIdeal.Read
import proofs.«172469_j39651138077522_2_alg».proof.Proof.Softmax
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attention

/-- The scaled product of queries and keys at (b, r, j) is the scaled score of query row (b, r) against key row (b, j). -/
theorem scores_eq (x0 x1 : (⟨S32x2048x128, .f32⟩ : BufTy).Contents (Elt Ideal)) (b : Fin 32) (r j : Fin 2048) :
    val_main_v2 (F := Ideal) x0 x1 (ix3 b r j) = scoreRow (fun d => x0 (ix3 b r d)) (fun j d => x1 (ix3 b j d)) j := by
  rw [val_main_v2_apply, val_main_v0_apply, val_main_v1_apply, val_main_cst_apply]
  unfold scoreRow
  refine congrArg (· * _) (Finset.sum_congr rfl fun d _ => ?_)
  have el : lidx_main_v0 (ix3 b r j) d = ix3 b r d := funext fun a => Fin.ext (by
    match a with
    | ⟨0, _⟩ => rfl
    | ⟨1, _⟩ => rfl
    | ⟨2, _⟩ => rfl)
  have er : ridx_main_v0 (ix3 b r j) d = ix3 b j d := funext fun a => Fin.ext (by
    match a with
    | ⟨0, _⟩ => rfl
    | ⟨1, _⟩ => rfl
    | ⟨2, _⟩ => rfl)
  rw [el, er]

/-- The reduce by maximum over the keys, at (b, r), is the maximum of the row of scaled scores. -/
theorem rowMax_eq (x0 x1 : (⟨S32x2048x128, .f32⟩ : BufTy).Contents (Elt Ideal)) (b : Fin 32) (r : Fin 2048) :
    val_main_v5 (F := Ideal) x0 x1 (ix2 b r) = rowMax (scoreRow (fun d => x0 (ix3 b r d)) (fun j d => x1 (ix3 b j d))) := by
  rw [val_main_v5_apply, val_main_v4_apply, val_main_cst_1_apply]
  refine (max_negInf _).trans ?_
  unfold val_main_v3
  have h : S32x2048x2048.Reduces [2] S32x2048 := by decide
  refine (Host.reduce_eq_fold_single FloatOps.maximumf _ _ reducesTo_S32x2048x2048_S32x2048_d2 h h_S_ (ix2 b r)).trans ?_
  have e : (val_main_v2 (F := Ideal) x0 x1 ∘ h.lift (ix2 b r))
      = fun j : Fin 2048 => scoreRow (fun d => x0 (ix3 b r d)) (fun j d => x1 (ix3 b j d)) j := funext fun j => by
    have ei : h.lift (ix2 b r) j = ix3 b r (⟨j.val, j.isLt⟩ : Fin 2048) := funext fun a => Fin.ext (by
      match a with
      | ⟨0, _⟩ => rfl
      | ⟨1, _⟩ => rfl
      | ⟨2, _⟩ => rfl)
    show val_main_v2 (F := Ideal) x0 x1 (h.lift (ix2 b r) j) = _
    rw [ei]
    exact scores_eq x0 x1 b r _
  rw [e]
  rfl

/-- The exponential of the score's distance below the row maximum, at (b, r, j), is the softmax weight. -/
theorem weight_eq (x0 x1 : (⟨S32x2048x128, .f32⟩ : BufTy).Contents (Elt Ideal)) (b : Fin 32) (r j : Fin 2048) :
    val_main_v9 (F := Ideal) x0 x1 (ix3 b r j) = weight (scoreRow (fun d => x0 (ix3 b r d)) (fun j d => x1 (ix3 b j d))) j := by
  rw [val_main_v9_apply, val_main_v8_apply, val_main_v7_apply, val_main_v6_apply]
  have e : idx_main_v6 (idx_main_v7 (ix3 b r j)) = ix2 b r := funext fun a => Fin.ext (by
    match a with
    | ⟨0, _⟩ => rfl
    | ⟨1, _⟩ => rfl)
  rw [e, rowMax_eq, scores_eq]
  rfl

/-- The reduce by sum over the keys, at (b, r), is the sum of the row's softmax weights. -/
theorem weightSum_eq (x0 x1 : (⟨S32x2048x128, .f32⟩ : BufTy).Contents (Elt Ideal)) (b : Fin 32) (r : Fin 2048) :
    val_main_v10 (F := Ideal) x0 x1 (ix2 b r) = ∑ j : Fin 2048, weight (scoreRow (fun d => x0 (ix3 b r d)) (fun j d => x1 (ix3 b j d))) j := by
  rw [val_main_v10_apply, val_main_cst_2_apply]
  refine (congrArg (· + _) Ideal.ofBits_zero_f32).trans ((zero_add _).trans ?_)
  refine Finset.sum_congr rfl fun j _ => ?_
  have e : idx_main_v10 (ix2 b r) j = ix3 b r j := funext fun a => Fin.ext (by
    match a with
    | ⟨0, _⟩ => rfl
    | ⟨1, _⟩ => rfl
    | ⟨2, _⟩ => rfl)
  rw [e, weight_eq]

/-- THE REFERENCE'S ATTENTION MATRIX is `attn` of the queries and keys. -/
theorem attn_eq (x0 x1 : (⟨S32x2048x128, .f32⟩ : BufTy).Contents (Elt Ideal)) : val_main_v13 (F := Ideal) x0 x1 = attn x0 x1 := by
  funext i
  obtain ⟨b, r, j, rfl⟩ : ∃ (b : Fin 32) (r : Fin 2048) (j : Fin 2048), i = ix3 b r j := ⟨i 0, i 1, i 2, eq_ix3 i⟩
  rw [val_main_v13_apply, val_main_v12_apply, val_main_v11_apply]
  have e : idx_main_v11 (idx_main_v12 (ix3 b r j)) = ix2 b r := funext fun a => Fin.ext (by
    match a with
    | ⟨0, _⟩ => rfl
    | ⟨1, _⟩ => rfl)
  rw [e, weightSum_eq, weight_eq]
  rfl

/-- THE REFERENCE'S CONTEXT VECTORS are `ctx` of the queries, keys and values. -/
theorem ctx_eq (x0 x1 x2 : (⟨S32x2048x128, .f32⟩ : BufTy).Contents (Elt Ideal)) : val_main_v14 (F := Ideal) x0 x1 x2 = ctx x0 x1 x2 := by
  funext i
  obtain ⟨b, r, d, rfl⟩ : ∃ (b : Fin 32) (r : Fin 2048) (d : Fin 128), i = ix3 b r d := ⟨i 0, i 1, i 2, eq_ix3 i⟩
  rw [val_main_v14_apply, attn_eq]
  unfold ctx
  refine Finset.sum_congr rfl fun j _ => ?_
  have el : lidx_main_v14 (ix3 b r d) j = ix3 b r j := funext fun a => Fin.ext (by
    match a with
    | ⟨0, _⟩ => rfl
    | ⟨1, _⟩ => rfl
    | ⟨2, _⟩ => rfl)
  have er : ridx_main_v14 (ix3 b r d) j = ix3 b j d := funext fun a => Fin.ext (by
    match a with
    | ⟨0, _⟩ => rfl
    | ⟨1, _⟩ => rfl
    | ⟨2, _⟩ => rfl)
  rw [el, er]

end Cert.ReferenceIdeal.RefValue

end
-- ==== Proof.lean ====
/-
  Scaled dot-product attention: a tiled kernel against the plain formula.

  For queries, keys and values of 32 batches × 2048 rows × 128 columns, both programs return the context vectors and the
  attention matrix: with `s r j = (∑ d, q r d · k j d) · c` the scaled scores of a batch (`c` one scale word, the same in
  both programs), the attention matrix is the row softmax `exp (s r j − max_j s r j) / ∑ j, exp (s r j − max_j s r j)`, and
  the context vector of row `r` is `∑ j, attention r j · v j d`.

  The kernel walks a grid of 32 × 2 points; at point (b, qi) it holds 1024 query rows of batch `b` and all of the batch's
  keys and values, and computes those rows of both results with two matrix products and lane reductions. The reference
  computes the same with batched products and reduces over whole arrays. On the extended reals the two are the same
  function of the arguments, entry by entry: a matrix product into zero is the sum over the contracted coordinate on both
  sides, a lane maximum and a reduce by maximum are the same fold of max from −∞ (the reference's extra maximum against
  −∞ changes nothing), a lane sum and a reduce by sum from zero are the same sum, and the exponential and the division are
  the same functions. Only commutativity and associativity of the sums and maxima are used, so the finiteness of the
  inputs is never needed.

  The three frames are the generated ones (the reference's is its run with the results dropped); no operation was
  rewritten by the idealization, so there is nothing to preserve.
-/
import proofs.«172469_j39651138077522_2_alg».proof.Defs
import proofs.«172469_j39651138077522_2_alg».proof.Proof.Gen.Kernel
import proofs.«172469_j39651138077522_2_alg».proof.Proof.Gen.Kernel.Frame
import proofs.«172469_j39651138077522_2_alg».proof.Proof.Gen.KernelIdeal
import proofs.«172469_j39651138077522_2_alg».proof.Proof.Gen.KernelIdeal.Frame
import proofs.«172469_j39651138077522_2_alg».proof.Proof.Gen.KernelIdeal.Value
import proofs.«172469_j39651138077522_2_alg».proof.Proof.Gen.ReferenceIdeal
import proofs.«172469_j39651138077522_2_alg».proof.Proof.Gen.ReferenceIdeal.Run
import proofs.«172469_j39651138077522_2_alg».proof.Proof.Gen.ReferenceIdeal.Read
import proofs.«172469_j39651138077522_2_alg».proof.Proof.Gen.Pre_finite_inputs
import proofs.«172469_j39651138077522_2_alg».proof.Proof.ArrayValue
import proofs.«172469_j39651138077522_2_alg».proof.Proof.RefAttention
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals the kernel's two result arrays end at the context vectors and the attention matrix of its
    arguments (the blocks of the grid points put together), and so do the reference's (its operations read one by one);
    the arguments agree, so the results are equal entry by entry. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.ctx_eq, (hagree c).1, (hagree c).2.1, (hagree c).2.2]
  · rw [Cert.ReferenceIdeal.Read.val_main_v13_eq, Cert.ReferenceIdeal.RefValue.attn_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
